-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S16x2 .f32) (main_arg9 : FVec F S2 .f32) (main_v33 : IVec S_ 1) : IVec S_ 1 :=
  let main_v34 : FVec F S16x2 .f32 := Host.absf main_arg8
  let main_cst_12 : FVec F S_ .f32 := constant S_ .f32 0x7F800000#32
  let main_v35 : FVec F S16x2 .f32 := broadcastInDim S16x2 ![] bcast_S_S16x2 main_cst_12
  let main_v36 : IVec S16x2 1 := cmpf .olt main_v34 main_v35
  let main_c_13 : IVec S_ 1 := constantI S_ 1 1#1
  let main_v37 : IVec S_ 1 := (fun x v => Host.reduce IntOp.andi x v reducesTo_S16x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x16 .f32) (main_arg6 : FVec F S16 .f32) (main_arg7 : FVec F S64x16 .f32) (main_arg8 : FVec F S16x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x1250000 32) (main_arg2 : FVec F S64x64 .f32) (main_arg3 : FVec F S64 .f32) (main_arg4 : FVec F S64x64 .f32) (main_arg5 : FVec F S64x16 .f32) (main_arg6 : FVec F S16 .f32) (main_arg7 : FVec F S64x16 .f32) (main_arg8 : FVec F S16x2 .f32) (main_arg9 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S16x2 : Shape := ⟨2, ![16, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S50000 : Shape := ⟨1, ![50000]⟩
abbrev S1250000x1 : Shape := ⟨2, ![1250000, 1]⟩
abbrev S50000x1 : Shape := ⟨2, ![50000, 1]⟩
abbrev S1250000x64 : Shape := ⟨2, ![1250000, 64]⟩
abbrev S1x64 : Shape := ⟨2, ![1, 64]⟩
abbrev S10000x64 : Shape := ⟨2, ![10000, 64]⟩
abbrev S1x16 : Shape := ⟨2, ![1, 16]⟩
abbrev S1x2 : Shape := ⟨2, ![1, 2]⟩
abbrev S50000x2 : Shape := ⟨2, ![50000, 2]⟩
abbrev S10000x2 : Shape := ⟨2, ![10000, 2]⟩
abbrev S10000x16 : Shape := ⟨2, ![10000, 16]⟩

abbrev nBuf : Space → Nat
  | .hbm => 62
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x16, .f32⟩
  | .hbm, ⟨6, _⟩ => ⟨S16, .f32⟩
  | .hbm, ⟨7, _⟩ => ⟨S64x16, .f32⟩
  | .hbm, ⟨8, _⟩ => ⟨S16x2, .f32⟩
  | .hbm, ⟨9, _⟩ => ⟨S2, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .f32⟩
  | .hbm, ⟨15, _⟩ => ⟨S1250000, .f32⟩
  | .hbm, ⟨16, _⟩ => ⟨S_, .f32⟩
  | .hbm, ⟨17, _⟩ => ⟨S50000, .f32⟩
  | .hbm, ⟨18, _⟩ => ⟨S1250000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S1250000, .i32⟩
  | .hbm, ⟨29, _⟩ => ⟨S1250000, .i1⟩
  | .hbm, ⟨30, _⟩ => ⟨S_, .i32⟩
  | .hbm, ⟨31, _⟩ => ⟨S1250000, .i32⟩
  | .hbm, ⟨32, _⟩ => ⟨S1250000, .i32⟩
  | .hbm, ⟨33, _⟩ => ⟨S1250000, .i32⟩
  | .hbm, ⟨34, _⟩ => ⟨S1250000x1, .i32⟩
  | .hbm, ⟨35, _⟩ => ⟨S1250000x64, .f32⟩
  | .hbm, ⟨36, _⟩ => ⟨S_, .f32⟩
  | .hbm, ⟨37, _⟩ => ⟨S50000x64, .f32⟩
  | .hbm, ⟨38, _⟩ => ⟨S1250000x1, .i32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S_, .i32⟩
  | .hbm, ⟨45, _⟩ => ⟨S1250000, .i32⟩
  | .hbm, ⟨46, _⟩ => ⟨S1250000, .i1⟩
  | .hbm, ⟨47, _⟩ => ⟨S_, .i32⟩
  | .hbm, ⟨48, _⟩ => ⟨S1250000, .i32⟩
  | .hbm, ⟨49, _⟩ => ⟨S1250000, .i32⟩
  | .hbm, ⟨50, _⟩ => ⟨S1250000, .i32⟩
  | .hbm, ⟨51, _⟩ => ⟨S1250000x1, .i32⟩
  | .hbm, ⟨52, _⟩ => ⟨S1250000x64, .f32⟩
  | .hbm, ⟨53, _⟩ => ⟨S_, .f32⟩
  | .hbm, ⟨54, _⟩ => ⟨S50000x64, .f32⟩
  | .hbm, ⟨55, _⟩ => ⟨S1250000x1, .i32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S1x16, .f32⟩
  | .hbm, ⟨60, _⟩ => ⟨S1x2, .f32⟩
  | .hbm, ⟨61, _⟩ => ⟨S50000x2, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x16, .f32⟩
  | .local _ .vmem, ⟨14, _⟩ => ⟨S1x16, .f32⟩
  | .local _ .vmem, ⟨15, _⟩ => ⟨S64x16, .f32⟩
  | .local _ .vmem, ⟨16, _⟩ => ⟨S16x2, .f32⟩
  | .local _ .vmem, ⟨17, _⟩ => ⟨S1x2, .f32⟩
  | .local _ .vmem, ⟨18, _⟩ => ⟨S10000x2, .f32⟩
  | .local _ .vmem, ⟨19, _⟩ => ⟨S10000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  shapeCasts_S50000_S50000x1 : S50000.ShapeCasts S50000x1
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S16_S1x16 : S16.ShapeCasts S1x16
  shapeCasts_S2_S1x2 : S2.ShapeCasts S1x2
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S50000_S1250000x1_S1250000_n_0_0_1_wf : ScatterDims.WF S50000 S1250000x1 S1250000 [] [0] [0] 1
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S10000x16_S16x2_S10000x2_1_0_0_1_n_n_wf : DotDims.WF S10000x16 S16x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S64x16.size a
  hwx1_4 : ∀ i : grid1.Coords, EltTy.bits .f32 = 32 ∨ (Rect.block (s := S64x16) S64x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x2.size a ≤ S16x2.size a
  hwx1_5 : ∀ i : grid1.Coords, EltTy.bits .f32 = 32 ∨ (Rect.block (s := S16x2) S16x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x2.size a ≤ S50000x2.size a
  hwx1_7 : ∀ i : grid1.Coords, EltTy.bits .f32 = 32 ∨ (Rect.block (s := S50000x2) S10000x2.size (cc1_transform_7 i) (hinb1_7 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S16x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S10000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S16x2 : Shape := ⟨2, ![16, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S50000 : Shape := ⟨1, ![50000]⟩
abbrev S50000x1 : Shape := ⟨2, ![50000, 1]⟩
abbrev S1x64 : Shape := ⟨2, ![1, 64]⟩
abbrev S50000x16 : Shape := ⟨2, ![50000, 16]⟩
abbrev S1x16 : Shape := ⟨2, ![1, 16]⟩
abbrev S50000x2 : Shape := ⟨2, ![50000, 2]⟩
abbrev S1x2 : Shape := ⟨2, ![1, 2]⟩

abbrev nBuf : Space → Nat
  | .hbm => 83
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x16, .f32⟩
  | .hbm, ⟨6, _⟩ => ⟨S16, .f32⟩
  | .hbm, ⟨7, _⟩ => ⟨S64x16, .f32⟩
  | .hbm, ⟨8, _⟩ => ⟨S16x2, .f32⟩
  | .hbm, ⟨9, _⟩ => ⟨S2, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S50000x64, .f32⟩
  | .hbm, ⟨25, _⟩ => ⟨S1250000x1, .i32⟩
  | .hbm, ⟨26, _⟩ => ⟨S50000x64, .f32⟩
  | .hbm, ⟨27, _⟩ => ⟨S_, .f32⟩
  | .hbm, ⟨28, _⟩ => ⟨S1250000, .f32⟩
  | .hbm, ⟨29, _⟩ => ⟨S_, .f32⟩
  | .hbm, ⟨30, _⟩ => ⟨S50000, .f32⟩
  | .hbm, ⟨31, _⟩ => ⟨S1250000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S_, .f32⟩
  | .hbm, ⟨58, _⟩ => ⟨S50000x64, .f32⟩
  | .hbm, ⟨59, _⟩ => ⟨S1250000x1, .i32⟩
  | .hbm, ⟨60, _⟩ => ⟨S50000x64, .f32⟩
  | .hbm, ⟨61, _⟩ => ⟨S_, .f32⟩
  | .hbm, ⟨62, _⟩ => ⟨S1250000, .f32⟩
  | .hbm, ⟨63, _⟩ => ⟨S_, .f32⟩
  | .hbm, ⟨64, _⟩ => ⟨S50000, .f32⟩
  | .hbm, ⟨65, _⟩ => ⟨S1250000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S50000x16, .f32⟩
  | .hbm, ⟨74, _⟩ => ⟨S1x16, .f32⟩
  | .hbm, ⟨75, _⟩ => ⟨S50000x16, .f32⟩
  | .hbm, ⟨76, _⟩ => ⟨S50000x16, .f32⟩
  | .hbm, ⟨77, _⟩ => ⟨S50000x16, .f32⟩
  | .hbm, ⟨78, _⟩ => ⟨S50000x16, .f32⟩
  | .hbm, ⟨79, _⟩ => ⟨S50000x2, .f32⟩
  | .hbm, ⟨80, _⟩ => ⟨S1x2, .f32⟩
  | .hbm, ⟨81, _⟩ => ⟨S50000x2, .f32⟩
  | .hbm, ⟨82, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  scatter_S50000_S1250000x1_S1250000_n_0_0_1_wf : ScatterDims.WF S50000 S1250000x1 S1250000 [] [0] [0] 1
  dot_S50000x64_S64x64_S50000x64_1_0_0_1_n_n_wf : DotDims.WF S50000x64 S64x64 S50000x64 [1] [0] [0] [1] [] []
  dot_S50000x64_S64x16_S50000x16_1_0_0_1_n_n_wf : DotDims.WF S50000x64 S64x16 S50000x16 [1] [0] [0] [1] [] []
  dot_S50000x16_S16x2_S50000x2_1_0_0_1_n_n_wf : DotDims.WF S50000x16 S16x2 S50000x2 [1] [0] [0] [1] [] []

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def dot_S50000x16_S16x2_S50000x2_1_0_0_1_n_n : DotDims S50000x16 S16x2 S50000x2 where
  lhsContracting := [1]
  rhsContracting := [0]
  lhsNonContracting := [0]
  rhsNonContracting := [1]
  lhsBatch := []
  rhsBatch := []
  wf := dot_S50000x16_S16x2_S50000x2_1_0_0_1_n_n_wf

class Facts : Prop extends Facts₀ where

variable [Facts]
-- ==== Proof.KernelRun.lean ====
/-
  The idealized kernel's run with its result named. @main is four segments: the host operations up to the first
  combine kernel, that kernel over its five row blocks, the host operations between the two kernels, the second
  kernel over its five row blocks. The buffer contents at the four boundaries are the fold `W1 … W4`; every
  unscoped buffer ends at `W4`, so the result array `main_v41` ends at `W4` read at it and each argument array
  ends as launched.
-/
import proofs.«129184_j34256659153681_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the ten argument arrays as launched. -/
theorem run : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.Aggregate.lean ====
/-
  The mean over incoming edges, as the kernel's host side computes it.

  Row 1 of the edge array is every edge's destination node and row 0 its source node (a negative source index
  counts from the end: 50000 is added to it). The sum over incoming edges gathers the source nodes' feature rows
  and scatter-adds them at the destinations, from zero. The degree of a node scatter-adds a one per incoming edge
  and is then raised to at least one; its reciprocal is computed once, as a column, and the mean is the sum times
  that column broadcast along the features. Read at node `r`, feature `k`, the mean is
  `sum(r,k) · (1 / max(count(r), 1))`: the gather and the scatter are never opened.
-/
import proofs.«129184_j34256659153681_1_alg».proof.Proof.Gen.KernelIdeal
import Idealize.ShloMosaic.Lib.Pipeline.Value
import Idealize.ShloMosaic.Lib.ValueIdx

noncomputable section

namespace Cert.KernelIdeal.Aggregate

open Cert.KernelIdeal Cert.KernelIdeal.Gen
open Idealize.ShloMosaic Idealize.ShloMosaic.ValueIdx

/-- Every edge's destination node: row 1 of the edge array. -/
def dst (e : IVec S2x1250000 32) : IVec S1250000 32 :=
  shapeCast _ (extractStridedSlice S1x1250000 ![1, 0] e slices_S2x1250000_S1x1250000_1_0) shapeCasts_S1x1250000_S1250000

/-- Every edge's source node as given: row 0 of the edge array. -/
def srcRaw (e : IVec S2x1250000 32) : IVec S1250000 32 :=
  shapeCast _ (extractStridedSlice S1x1250000 ![0, 0] e slices_S2x1250000_S1x1250000_0_0) shapeCasts_S1x1250000_S1250000

/-- The source node with a negative index counted from the end. -/
def srcOf (s : IVec S1250000 32) : IVec S1250000 32 :=
  select (cmpi .slt s (broadcastInDim S1250000 ![] bcast_S_S1250000 (constantI S_ 32 0#32)))
    (addi s (broadcastInDim S1250000 ![] bcast_S_S1250000 (constantI S_ 32 50000#32))) s

/-- The sum over incoming edges of the source nodes' feature rows, for destinations `d` and sources `s`. -/
def segSumAt (h : FVec Ideal S50000x64 .f32) (d s : IVec S1250000 32) :
    FVec Ideal S50000x64 .f32 :=
  Host.scatterAdd scatter_S50000x64_S1250000x1_S1250000x64_1_0_0_1
    (broadcastInDim S50000x64 ![] bcast_S_S50000x64 (constant (F := Ideal) S_ .f32 0x00000000#32))
    (broadcastInDim S1250000x1 ![0] bcast_S1250000_S1250000x1_0 d)
    (Host.gather gather_S50000x64_S1250000x1_S1250000x64_1_0_n_n_0_1_164 h
      (broadcastInDim S1250000x1 ![0] bcast_S1250000_S1250000x1_0 (srcOf s)))

/-- The number of incoming edges of every node, as a float sum of ones. -/
def count (d : IVec S1250000 32) : FVec Ideal S50000 .f32 :=
  Host.scatterAdd scatter_S50000_S1250000x1_S1250000_n_0_0_1
    (broadcastInDim S50000 ![] bcast_S_S50000 (constant (F := Ideal) S_ .f32 0x00000000#32))
    (broadcastInDim S1250000x1 ![0] bcast_S1250000_S1250000x1_0 d)
    (broadcastInDim S1250000 ![] bcast_S_S1250000 (constant (F := Ideal) S_ .f32 0x3F800000#32))

/-- The reciprocal of the degree raised to at least one, as a column. -/
def recipCol (d : IVec S1250000 32) : FVec Ideal S50000x1 .f32 :=
  shapeCast _ (Host.divf (broadcastInDim S50000 ![] bcast_S_S50000 (constant (F := Ideal) S_ .f32 0x3F800000#32))
    (maximumf (count d) (broadcastInDim S50000 ![] bcast_S_S50000 (constant (F := Ideal) S_ .f32 0x3F800000#32))))
    shapeCasts_S50000_S50000x1

/-- The mean over incoming edges: the sum times a reciprocal column `rc` broadcast along the features. -/
def meanAt (h : FVec Ideal S50000x64 .f32) (d s : IVec S1250000 32)
    (rc : FVec Ideal S50000x1 .f32) : FVec Ideal S50000x64 .f32 :=
  mulf (segSumAt h d s) (broadcastInDim S50000x64 ![0, 1] bcast_S50000x1_S50000x64_0_1 rc)

/-- The mean aggregate of the features `h` over the edges `e`. -/
def meanAgg (h : FVec Ideal S50000x64 .f32) (e : IVec S2x1250000 32) :
    FVec Ideal S50000x64 .f32 :=
  meanAt h (dst e) (srcRaw e) (recipCol (dst e))

/-- A column broadcast along the features reads, at (r, k), the column at (r, 0). -/
theorem column_broadcast_apply (rc : FVec Ideal S50000x1 .f32) (r : Fin 50000) (k : Fin 64) :
    broadcastInDim S50000x64 ![0, 1] bcast_S50000x1_S50000x64_0_1 rc (ix2 r k) = rc (ix2 r 0) :=
  broadcastInDim_apply _ bcast_S50000x1_S50000x64_0_1 rc (ix2 r k) (ix2 r 0) (fun a => match a with
    | ⟨0, _⟩ => by show r.val = if (50000 : Nat) = 1 then 0 else r.val; rw [if_neg (by decide)]
    | ⟨1, _⟩ => by show 0 = if (1 : Nat) = 1 then 0 else k.val; rw [if_pos rfl])

/-- A vector viewed as a column reads, at (r, 0), the vector at r. -/
theorem column_of_vector_apply (v : FVec Ideal S50000 .f32) (r : Fin 50000) :
    shapeCast S50000x1 v shapeCasts_S50000_S50000x1 (ix2 r 0) = v (ix1 r) := by
  refine shapeCast_apply v shapeCasts_S50000_S50000x1 (ix2 r 0) (ix1 r) ?_
  rw [Shape.rowMajor_val_two, Shape.rowMajor_val_one]
  show r.val = r.val * 1 + 0
  omega

/-- A scalar constant broadcast to a vector reads the constant everywhere. -/
theorem splat_apply (w : BitVec 32) (i : S50000.Idx) :
    broadcastInDim S50000 ![] bcast_S_S50000 (constant (F := Ideal) S_ .f32 w) i = Ideal.ofBits .f32 w :=
  broadcastInDim_apply _ bcast_S_S50000 (constant (F := Ideal) S_ .f32 w) i ix0 (fun a => a.elim0)

/-- The host's quotient of two vectors, entry by entry. -/
theorem hostDivf_apply (a b : FVec Ideal S50000 .f32) (i : S50000.Idx) : Host.divf a b i = Ideal.div (a i) (b i) := rfl

/-- The mean at node `r`, feature `k`: the sum there times the reciprocal of the raised degree of `r`. -/
theorem meanAgg_apply (h : FVec Ideal S50000x64 .f32) (e : IVec S2x1250000 32)
    (r : Fin 50000) (k : Fin 64) :
    meanAgg h e (ix2 r k)
      = segSumAt h (dst e) (srcRaw e) (ix2 r k)
        * Ideal.div (Ideal.ofBits .f32 0x3F800000#32) (max (count (dst e) (ix1 r)) (Ideal.ofBits .f32 0x3F800000#32)) := by
  unfold meanAgg meanAt recipCol
  rw [mulf_apply, column_broadcast_apply, column_of_vector_apply, hostDivf_apply, maximumf_apply, splat_apply]

end Cert.KernelIdeal.Aggregate

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.BlockLayers.lean ====
/-
  What one row block of each combine kernel computes, entry by entry, on the extended reals.

  Both kernels take a block of 10000 rows of the aggregated features `a` and of the node features `x`, and whole
  weight matrices. The casts to bf16 are the identity at `Ideal`, and a matrix product into the zero accumulator is a
  plain sum over the contracted axis. So the first kernel's entry (p, q) is
  `max ((∑ₖ a(p,k)·wl(k,q) + ∑ₖ x(p,k)·wr(k,q)) + b(0,q)) 0`, and the second kernel's entry (p, q) is
  `∑ⱼ ((∑ₖ a(p,k)·wl(k,j) + ∑ₖ x(p,k)·wr(k,j)) + b(0,j)) · wfc(j,q) + bfc(0,q)`.
-/
import proofs.«129184_j34256659153681_1_alg».proof.Proof.Gen.KernelIdeal.Skeleton
import proofs.«129184_j34256659153681_1_alg».proof.Proof.LibMatmulRowsByCols
import proofs.«129184_j34256659153681_1_alg».proof.Proof.LibOneRowMatrix
import Idealize.ShloMosaic.Lib.Pipeline.Value
import Idealize.ShloMosaic.Lib.ValueIdx

noncomputable section

namespace Cert.KernelIdeal.BlockLayers

open Cert.KernelIdeal Cert.KernelIdeal.Gen
open Idealize.ShloMosaic Idealize.ShloMosaic.ValueIdx

/-! ## The three matrix products -/

/-- A 10000×64 block times a 64×64 weight, at (p, q). -/
theorem mm_64_64 {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) :=
  MatmulRowsByCols.matmul_zero_apply (M := 10000) (K := 64) (N := 64) dot_S10000x64_S64x64_S10000x64_1_0_0_1_n_n rfl rfl
    (fun j c => by
      unfold DotDims.lhsIdx
      rw [dif_neg (show ¬(0 : Fin S10000x64.rank) ∈ dot_S10000x64_S64x64_S10000x64_1_0_0_1_n_n.lhsBatch by decide),
        dif_pos (show (0 : Fin S10000x64.rank) ∈ dot_S10000x64_S64x64_S10000x64_1_0_0_1_n_n.lhsNonContracting by decide)]
      rfl)
    (fun j c => dot_S10000x64_S64x64_S10000x64_1_0_0_1_n_n.lhsIdx_val_of_single rfl j c)
    (fun j c => dot_S10000x64_S64x64_S10000x64_1_0_0_1_n_n.rhsIdx_val_of_single rfl j c)
    (fun j c => by
      unfold DotDims.rhsIdx
      rw [dif_neg (show ¬(1 : Fin S64x64.rank) ∈ dot_S10000x64_S64x64_S10000x64_1_0_0_1_n_n.rhsBatch by decide),
        dif_pos (show (1 : Fin S64x64.rank) ∈ dot_S10000x64_S64x64_S10000x64_1_0_0_1_n_n.rhsNonContracting by decide)]
      rfl)
    none l r p q

/-- A 10000×64 block times a 64×16 weight, at (p, q). -/
theorem mm_64_16 {φ₁ φ₂ : FTy} (l : FVec Ideal S10000x64 φ₁) (r : FVec Ideal S64x16 φ₂) (p : Fin 10000) (q : Fin 16) :
    matmul dot_S10000x64_S64x16_S10000x16_1_0_0_1_n_n none l r (constant (F := Ideal) S10000x16 .f32 0x00000000#32) (ix2 p q)
      = ∑ k : Fin 64, l (ix2 p k) * r (ix2 k q) :=
  MatmulRowsByCols.matmul_zero_apply (M := 10000) (K := 64) (N := 16) dot_S10000x64_S64x16_S10000x16_1_0_0_1_n_n rfl rfl
    (fun j c => by
      unfold DotDims.lhsIdx
      rw [dif_neg (show ¬(0 : Fin S10000x64.rank) ∈ dot_S10000x64_S64x16_S10000x16_1_0_0_1_n_n.lhsBatch by decide),
        dif_pos (show (0 : Fin S10000x64.rank) ∈ dot_S10000x64_S64x16_S10000x16_1_0_0_1_n_n.lhsNonContracting by decide)]
      rfl)
    (fun j c => dot_S10000x64_S64x16_S10000x16_1_0_0_1_n_n.lhsIdx_val_of_single rfl j c)
    (fun j c => dot_S10000x64_S64x16_S10000x16_1_0_0_1_n_n.rhsIdx_val_of_single rfl j c)
    (fun j c => by
      unfold DotDims.rhsIdx
      rw [dif_neg (show ¬(1 : Fin S64x16.rank) ∈ dot_S10000x64_S64x16_S10000x16_1_0_0_1_n_n.rhsBatch by decide),
        dif_pos (show (1 : Fin S64x16.rank) ∈ dot_S10000x64_S64x16_S10000x16_1_0_0_1_n_n.rhsNonContracting by decide)]
      rfl)
    none l r p q

/-- A 10000×16 block times the 16×2 output weight, at (p, q). -/
theorem mm_16_2 {φ₁ φ₂ : FTy} (l : FVec Ideal S10000x16 φ₁) (r : FVec Ideal S16x2 φ₂) (p : Fin 10000) (q : Fin 2) :
    matmul dot_S10000x16_S16x2_S10000x2_1_0_0_1_n_n none l r (constant (F := Ideal) S10000x2 .f32 0x00000000#32) (ix2 p q)
      = ∑ k : Fin 16, l (ix2 p k) * r (ix2 k q) :=
  MatmulRowsByCols.matmul_zero_apply (M := 10000) (K := 16) (N := 2) dot_S10000x16_S16x2_S10000x2_1_0_0_1_n_n rfl rfl
    (fun j c => by
      unfold DotDims.lhsIdx
      rw [dif_neg (show ¬(0 : Fin S10000x16.rank) ∈ dot_S10000x16_S16x2_S10000x2_1_0_0_1_n_n.lhsBatch by decide),
        dif_pos (show (0 : Fin S10000x16.rank) ∈ dot_S10000x16_S16x2_S10000x2_1_0_0_1_n_n.lhsNonContracting by decide)]
      rfl)
    (fun j c => dot_S10000x16_S16x2_S10000x2_1_0_0_1_n_n.lhsIdx_val_of_single rfl j c)
    (fun j c => dot_S10000x16_S16x2_S10000x2_1_0_0_1_n_n.rhsIdx_val_of_single rfl j c)
    (fun j c => by
      unfold DotDims.rhsIdx
      rw [dif_neg (show ¬(1 : Fin S16x2.rank) ∈ dot_S10000x16_S16x2_S10000x2_1_0_0_1_n_n.rhsBatch by decide),
        dif_pos (show (1 : Fin S16x2.rank) ∈ dot_S10000x16_S16x2_S10000x2_1_0_0_1_n_n.rhsNonContracting by decide)]
      rfl)
    none l r p q

/-! ## The two blocks -/

/-- The hidden layer of one row block before the second kernel's output product: entry (p, j). -/
def hidden2 (a x : Vec Ideal S10000x64 .f32) (wl wr : Vec Ideal S64x16 .f32) (b : Vec Ideal S1x16 .f32)
    (p : Fin 10000) (j : Fin 16) : EReal :=
  (∑ k : Fin 64, a (ix2 p k) * wl (ix2 k j) + ∑ k : Fin 64, x (ix2 p k) * wr (ix2 k j)) + b (ix2 0 j)

/-- The first kernel's stored block at (p, q). -/
theorem block1_apply (a x : Vec Ideal S10000x64 .f32) (wl wr : Vec Ideal S64x64 .f32) (b : Vec Ideal S1x64 .f32)
    (p : Fin 10000) (q : Fin 64) :
    k0_pay1 (F := Ideal) a x wl wr b (ix2 p q)
      = max ((∑ k : Fin 64, a (ix2 p k) * wl (ix2 k q) + ∑ k : Fin 64, x (ix2 p k) * wr (ix2 k q)) + b (ix2 0 q))
          (Ideal.ofBits .f32 0x00000000#32) := by
  unfold k0_pay1
  simp only [shapeCast_self]
  rw [maximumf_apply, addf_apply, addf_apply, mm_64_64, mm_64_64, OneRowMatrix.broadcast_row_apply]
  rfl

/-- The second kernel's stored block at (p, q). -/
theorem block2_apply (a x : Vec Ideal S10000x64 .f32) (wl wr : Vec Ideal S64x16 .f32) (b : Vec Ideal S1x16 .f32)
    (wfc : Vec Ideal S16x2 .f32) (bfc : Vec Ideal S1x2 .f32) (p : Fin 10000) (q : Fin 2) :
    k1_pay1 (F := Ideal) a x wl wr b wfc bfc (ix2 p q)
      = ∑ j : Fin 16, hidden2 a x wl wr b p j * wfc (ix2 j q) + bfc (ix2 0 q) := by
  unfold k1_pay1
  simp only [shapeCast_self]
  rw [addf_apply, mm_16_2, OneRowMatrix.broadcast_row_apply]
  refine congrArg (· + bfc (ix2 0 q)) (Finset.sum_congr rfl fun j _ => ?_)
  rw [truncf_apply, addf_apply, addf_apply, mm_64_16, mm_64_16, OneRowMatrix.broadcast_row_apply]
  rfl

end Cert.KernelIdeal.BlockLayers

end
-- ==== Proof.LayerRows.lean ====
/-
  The two layers as functions of whole arrays, and a kernel block as a block of rows of them.

  `layer1 A X Wl Wr B` is the rectified first layer over all 50000 nodes: entry (r, q) is
  `max ((∑ₖ A(r,k)·Wl(k,q) + ∑ₖ X(r,k)·Wr(k,q)) + B(0,q)) 0`. `layer2` is the second layer followed by the output
  product: entry (r, q) is `∑ⱼ hidden(r,j)·Wfc(j,q) + Bfc(0,q)` with
  `hidden(r,j) = (∑ₖ A(r,k)·Wl(k,j) + ∑ₖ X(r,k)·Wr(k,j)) + B(0,j)`. An entry of a layer depends on one row of
  `A` and of `X` only, so the kernel's block at grid point `t`, computed from rows `10000·t … 10000·t + 9999` of
  `A` and `X`, is those rows of the layer.
-/
import proofs.«129184_j34256659153681_1_alg».proof.Proof.BlockLayers

noncomputable section

namespace Cert.KernelIdeal.LayerRows

open Cert.KernelIdeal Cert.KernelIdeal.Gen Cert.KernelIdeal.BlockLayers
open Idealize.ShloMosaic Idealize.ShloMosaic.ValueIdx

/-- The first layer at node `r`, feature `q`. -/
def entry1 (A X : Vec Ideal S50000x64 .f32) (Wl Wr : Vec Ideal S64x64 .f32) (B : Vec Ideal S1x64 .f32)
    (r : Fin 50000) (q : Fin 64) : EReal :=
  max ((∑ k : Fin 64, A (ix2 r k) * Wl (ix2 k q) + ∑ k : Fin 64, X (ix2 r k) * Wr (ix2 k q)) + B (ix2 0 q))
    (Ideal.ofBits .f32 0x00000000#32)

/-- The first layer over all nodes. -/
def layer1 (A X : Vec Ideal S50000x64 .f32) (Wl Wr : Vec Ideal S64x64 .f32) (B : Vec Ideal S1x64 .f32) :
    Vec Ideal S50000x64 .f32 := fun i => entry1 A X Wl Wr B (i 0) (i 1)

/-- The second layer at node `r`, feature `j`, before the output product. -/
def hidden (A X : Vec Ideal S50000x64 .f32) (Wl Wr : Vec Ideal S64x16 .f32) (B : Vec Ideal S1x16 .f32)
    (r : Fin 50000) (j : Fin 16) : EReal :=
  (∑ k : Fin 64, A (ix2 r k) * Wl (ix2 k j) + ∑ k : Fin 64, X (ix2 r k) * Wr (ix2 k j)) + B (ix2 0 j)

/-- The output at node `r`, class `q`. -/
def entry2 (A X : Vec Ideal S50000x64 .f32) (Wl Wr : Vec Ideal S64x16 .f32) (B : Vec Ideal S1x16 .f32)
    (Wfc : Vec Ideal S16x2 .f32) (Bfc : Vec Ideal S1x2 .f32) (r : Fin 50000) (q : Fin 2) : EReal :=
  ∑ j : Fin 16, hidden A X Wl Wr B r j * Wfc (ix2 j q) + Bfc (ix2 0 q)

/-- The output over all nodes. -/
def layer2 (A X : Vec Ideal S50000x64 .f32) (Wl Wr : Vec Ideal S64x16 .f32) (B : Vec Ideal S1x16 .f32)
    (Wfc : Vec Ideal S16x2 .f32) (Bfc : Vec Ideal S1x2 .f32) : Vec Ideal S50000x2 .f32 :=
  fun i => entry2 A X Wl Wr B Wfc Bfc (i 0) (i 1)

/-- The first kernel's block over rows `10000·t + ·` of `A` and `X` is those rows of the first layer. -/
theorem block1_rows (a x : Vec Ideal S10000x64 .f32) (wl wr : Vec Ideal S64x64 .f32) (b : Vec Ideal S1x64 .f32)
    (A X : Vec Ideal S50000x64 .f32) (t : ℕ)
    (ha : ∀ (y : S10000x64.Idx) (i : S50000x64.Idx), (i 0).val = t * 10000 + (y 0).val → (i 1).val = (y 1).val → a y = A i)
    (hx : ∀ (y : S10000x64.Idx) (i : S50000x64.Idx), (i 0).val = t * 10000 + (y 0).val → (i 1).val = (y 1).val → x y = X i)
    (j : S10000x64.Idx) (i : S50000x64.Idx) (hi0 : (i 0).val = t * 10000 + (j 0).val) (hi1 : (i 1).val = (j 1).val) :
    k0_pay1 (F := Ideal) a x wl wr b j = layer1 A X wl wr b i := by
  obtain ⟨p, q, rfl⟩ : ∃ (p : Fin 10000) (q : Fin 64), j = ix2 p q := ⟨j 0, j 1, eq_ix2 j⟩
  obtain ⟨r, q', rfl⟩ : ∃ (r : Fin 50000) (q' : Fin 64), i = ix2 r q' := ⟨i 0, i 1, eq_ix2 i⟩
  have hq : q' = q := Fin.ext hi1
  subst hq
  have e1 : ∀ k : Fin 64, a (ix2 p k) = A (ix2 r k) := fun k => ha (ix2 p k) (ix2 r k) hi0 rfl
  have e2 : ∀ k : Fin 64, x (ix2 p k) = X (ix2 r k) := fun k => hx (ix2 p k) (ix2 r k) hi0 rfl
  rw [block1_apply]
  show _ = entry1 A X wl wr b r q'
  unfold entry1
  simp only [e1, e2]

/-- The second kernel's block over rows `10000·t + ·` of `A` and `X` is those rows of the output. -/
theorem block2_rows (a x : Vec Ideal S10000x64 .f32) (wl wr : Vec Ideal S64x16 .f32) (b : Vec Ideal S1x16 .f32)
    (wfc : Vec Ideal S16x2 .f32) (bfc : Vec Ideal S1x2 .f32)
    (A X : Vec Ideal S50000x64 .f32) (t : ℕ)
    (ha : ∀ (y : S10000x64.Idx) (i : S50000x64.Idx), (i 0).val = t * 10000 + (y 0).val → (i 1).val = (y 1).val → a y = A i)
    (hx : ∀ (y : S10000x64.Idx) (i : S50000x64.Idx), (i 0).val = t * 10000 + (y 0).val → (i 1).val = (y 1).val → x y = X i)
    (j : S10000x2.Idx) (i : S50000x2.Idx) (hi0 : (i 0).val = t * 10000 + (j 0).val) (hi1 : (i 1).val = (j 1).val) :
    k1_pay1 (F := Ideal) a x wl wr b wfc bfc j = layer2 A X wl wr b wfc bfc i := by
  obtain ⟨p, q, rfl⟩ : ∃ (p : Fin 10000) (q : Fin 2), j = ix2 p q := ⟨j 0, j 1, eq_ix2 j⟩
  obtain ⟨r, q', rfl⟩ : ∃ (r : Fin 50000) (q' : Fin 2), i = ix2 r q' := ⟨i 0, i 1, eq_ix2 i⟩
  have hq : q' = q := Fin.ext hi1
  subst hq
  have e1 : ∀ k : Fin 64, a (ix2 p k) = A (ix2 r k) := fun k => ha (ix2 p k) (ix2 r k) hi0 rfl
  have e2 : ∀ k : Fin 64, x (ix2 p k) = X (ix2 r k) := fun k => hx (ix2 p k) (ix2 r k) hi0 rfl
  rw [block2_apply]
  show _ = entry2 A X wl wr b wfc bfc r q'
  unfold entry2 hidden hidden2
  simp only [e1, e2]

end Cert.KernelIdeal.LayerRows

end
-- ==== Proof.FirstKernel.lean ====
/-
  The first combine kernel over its grid of five row blocks: the array it leaves is the first layer.

  At grid point `t` the kernel is handed rows `10000·t … 10000·t + 9999` of the aggregated features and of the node
  features, and the two weight matrices and the bias row whole; what it stores is written back to the same rows of
  the result. Those rows are the first layer's (an entry of the layer reads one row of its two row operands), the
  five blocks tile the 50000 rows, so after the last point the result array is the first layer of the arrays the
  kernel found, whatever those are.
-/
import proofs.«129184_j34256659153681_1_alg».proof.Proof.Gen.KernelIdeal.Frame
import proofs.«129184_j34256659153681_1_alg».proof.Proof.LayerRows
import Idealize.ShloMosaic.Lib.Pipeline.Value

set_option maxRecDepth 16384

noncomputable section

namespace Cert.KernelIdeal.FirstKernel

open Cert.KernelIdeal Cert.KernelIdeal.Gen Cert.KernelIdeal.BlockLayers Cert.KernelIdeal.LayerRows
open Idealize.ShloMosaic Idealize.ShloMosaic.TcCoe Idealize.ShloMosaic.ValueIdx
open Idealize.SL Idealize.SL.Sem
open Idealize.ShloMosaic.Pipeline (Dat Cfg Window)

-- the buffer contents when the kernel is entered: any contents
variable (V : (c : Dev nD) → (b : Ref sig .tc) → Buf (Elt Ideal) ((c : Thread nD τ).loc b))

theorem hz : (![0, 0] : Fin 2 → Nat) = fun _ => 0 := funext fun a => by fin_cases a <;> rfl

/-- The block the body stores: one store of the whole block, from whole-block loads. -/
theorem stored_block (x0 x1 : Vec Ideal S10000x64 .f32) (x2 : Vec Ideal S64x64 .f32) (x3 : Vec Ideal S1x64 .f32)
    (x4 : Vec Ideal S64x64 .f32) : out0_5 x0 x1 x2 x3 x4 = k0_pay1 x0 x1 x2 x4 x3 := by
  unfold out0_5
  rw [View.canon_unit_zero hz]
  simp only [View.ld_unit_zero (S := S10000x64) hz, View.ld_unit_zero (S := S64x64) hz, View.ld_unit_zero (S := S1x64) hz]

/-- The block indices over the grid: the row operands and the result move with the point along the rows, the
    weights and the bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block of rows is some point's. -/
theorem idx_onto : ∀ q0 : Fin 5, ∃ t : Fin cfg0.N, win0_5.index t = ![q0.val, 0] :=
  (by decide +kernel : ∀ q0 : Fin 5, ∃ t : Fin grid0.N, win0_5.index t = ![q0.val, 0])

/-- What point `t` writes back is rows `10000·t + ·` of the first layer of the arrays the kernel found. -/
theorem flushed (c : Dev nD) (t : Fin cfg0.N) :
    (dat0 V c).flushed 5 t = ((cfg0.win 5).blk t).view.read (Elt Ideal)
      (layer1 (V c main_v24) (V c main_arg0) (V c main_arg2) (V c main_arg4) (V c main_v25)) := by
  show (cfg0.win 5).cut (grid0.coords t) ((dat0 V c).after 5 t) = _
  rw [after0_5, stored_block]
  obtain ⟨e00, e01, e10, e11, e20, e21, e30, e31, e40, e41, e50, e51⟩ := idx_facts t
  have h2 : iblk0 V c 2 t = V c main_arg2 := by
    funext y
    show V c main_arg2 (((cfg0.win 2).blk t).view.emb y) = V c main_arg2 y
    have e : ((cfg0.win 2).blk t).view.emb y = y := by
      funext a; apply Fin.ext
      match a with
      | ⟨0, _⟩ => show win0_2.index t (0 : Fin 2) * 64 + 1 * (y 0).val = (y 0).val; omega
      | ⟨1, _⟩ => show win0_2.index t (1 : Fin 2) * 64 + 1 * (y 1).val = (y 1).val; omega
    rw [e]
  have h3 : iblk0 V c 3 t = V c main_v25 := by
    funext y
    show V c main_v25 (((cfg0.win 3).blk t).view.emb y) = V c main_v25 y
    have e : ((cfg0.win 3).blk t).view.emb y = y := by
      funext a; apply Fin.ext
      match a with
      | ⟨0, _⟩ => show win0_3.index t (0 : Fin 2) * 1 + 1 * (y 0).val = (y 0).val; omega
      | ⟨1, _⟩ => show win0_3.index t (1 : Fin 2) * 64 + 1 * (y 1).val = (y 1).val; omega
    rw [e]
  have h4 : iblk0 V c 4 t = V c main_arg4 := by
    funext y
    show V c main_arg4 (((cfg0.win 4).blk t).view.emb y) = V c main_arg4 y
    have e : ((cfg0.win 4).blk t).view.emb y = y := by
      funext a; apply Fin.ext
      match a with
      | ⟨0, _⟩ => show win0_4.index t (0 : Fin 2) * 64 + 1 * (y 0).val = (y 0).val; omega
      | ⟨1, _⟩ => show win0_4.index t (1 : Fin 2) * 64 + 1 * (y 1).val = (y 1).val; omega
    rw [e]
  rw [h2, h3, h4]
  funext j
  show k0_pay1 (F := Ideal) (iblk0 V c 0 t) (iblk0 V c 1 t) (V c main_arg2) (V c main_arg4) (V c main_v25) j
    = layer1 (V c main_v24) (V c main_arg0) (V c main_arg2) (V c main_arg4) (V c main_v25) (((cfg0.win 5).blk t).view.emb j)
  refine block1_rows _ _ _ _ _ _ _ t.val (fun y i h0 h1 => ?_) (fun y i h0 h1 => ?_) j _ ?_ ?_
  · show V c main_v24 (((cfg0.win 0).blk t).view.emb y) = V c main_v24 i
    have e : ((cfg0.win 0).blk t).view.emb y = i := by
      funext a; apply Fin.ext
      match a with
      | ⟨0, _⟩ => show win0_0.index t (0 : Fin 2) * 10000 + 1 * (y 0).val = (i 0).val; omega
      | ⟨1, _⟩ => show win0_0.index t (1 : Fin 2) * 64 + 1 * (y 1).val = (i 1).val; omega
    rw [e]
  · show V c main_arg0 (((cfg0.win 1).blk t).view.emb y) = V c main_arg0 i
    have e : ((cfg0.win 1).blk t).view.emb y = i := by
      funext a; apply Fin.ext
      match a with
      | ⟨0, _⟩ => show win0_1.index t (0 : Fin 2) * 10000 + 1 * (y 0).val = (i 0).val; omega
      | ⟨1, _⟩ => show win0_1.index t (1 : Fin 2) * 64 + 1 * (y 1).val = (i 1).val; omega
    rw [e]
  · show win0_5.index t (0 : Fin 2) * 10000 + 1 * (j 0).val = t.val * 10000 + (j 0).val; omega
  · show win0_5.index t (1 : Fin 2) * 64 + 1 * (j 1).val = (j 1).val; omega

/-- An index of the result is in point `t`'s block iff each coordinate is in the block's range on its axis. -/
theorem mem_blk (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- Row `r` is in the block of point `r / 10000`: the five blocks tile the result. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The result array after the first kernel is the first layer of the arrays it found. -/
theorem value (c : Dev nD) :
    (dat0 V c).arrAt 5 cfg0.N = layer1 (V c main_v24) (V c main_arg0) (V c main_arg2) (V c main_arg4) (V c main_v25) :=
  (dat0 V c).arrAt_eq_of_cover 5 _ (fun t _ => flushed V c t) cover

end Cert.KernelIdeal.FirstKernel

end
-- ==== Proof.SecondKernel.lean ====
/-
  The second combine kernel over its grid of five row blocks: the array it leaves is the output layer.

  At grid point `t` the kernel is handed rows `10000·t … 10000·t + 9999` of the aggregated hidden features and of
  the hidden features, and the three weight matrices and the two bias rows whole; what it stores is written back to
  the same rows of the result. Those rows are the output layer's, the five blocks tile the 50000 rows, so after the
  last point the result array is the output layer of the arrays the kernel found, whatever those are.
-/
import proofs.«129184_j34256659153681_1_alg».proof.Proof.Gen.KernelIdeal.Frame
import proofs.«129184_j34256659153681_1_alg».proof.Proof.LayerRows
import Idealize.ShloMosaic.Lib.Pipeline.Value

set_option maxRecDepth 16384

noncomputable section

namespace Cert.KernelIdeal.SecondKernel

open Cert.KernelIdeal Cert.KernelIdeal.Gen Cert.KernelIdeal.BlockLayers Cert.KernelIdeal.LayerRows
open Idealize.ShloMosaic Idealize.ShloMosaic.TcCoe Idealize.ShloMosaic.ValueIdx
open Idealize.SL Idealize.SL.Sem
open Idealize.ShloMosaic.Pipeline (Dat Cfg Window)

-- the buffer contents when the kernel is entered: any contents
variable (V : (c : Dev nD) → (b : Ref sig .tc) → Buf (Elt Ideal) ((c : Thread nD τ).loc b))

theorem hz : (![0, 0] : Fin 2 → Nat) = fun _ => 0 := funext fun a => by fin_cases a <;> rfl

/-- The block the body stores: one store of the whole block, from whole-block loads. -/
theorem stored_block (x0 x1 : Vec Ideal S10000x64 .f32) (x2 : Vec Ideal S64x16 .f32) (x3 : Vec Ideal S1x16 .f32)
    (x4 : Vec Ideal S64x16 .f32) (x5 : Vec Ideal S16x2 .f32) (x6 : Vec Ideal S1x2 .f32) :
    out1_7 x0 x1 x2 x3 x4 x5 x6 = k1_pay1 x0 x1 x2 x4 x3 x5 x6 := by
  unfold out1_7
  rw [View.canon_unit_zero hz]
  simp only [View.ld_unit_zero (S := S10000x64) hz, View.ld_unit_zero (S := S64x16) hz, View.ld_unit_zero (S := S1x16) hz,
    View.ld_unit_zero (S := S16x2) hz, View.ld_unit_zero (S := S1x2) hz]

/-- The block indices over the grid: the row operands and the result move with the point along the rows, the
    weights and the biases stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Every block of rows is some point's. -/
theorem idx_onto : ∀ q0 : Fin 5, ∃ t : Fin cfg1.N, win1_7.index t = ![q0.val, 0] :=
  (by decide +kernel : ∀ q0 : Fin 5, ∃ t : Fin grid1.N, win1_7.index t = ![q0.val, 0])

/-- What point `t` writes back is rows `10000·t + ·` of the output layer of the arrays the kernel found. -/
theorem flushed (c : Dev nD) (t : Fin cfg1.N) :
    (dat1 V c).flushed 7 t = ((cfg1.win 7).blk t).view.read (Elt Ideal)
      (layer2 (V c main_v38) (V c main_v26) (V c main_arg5) (V c main_arg7) (V c main_v39) (V c main_arg8) (V c main_v40)) := by
  show (cfg1.win 7).cut (grid1.coords t) ((dat1 V c).after 7 t) = _
  rw [after1_7, stored_block]
  obtain ⟨e00, e01, e10, e11, e20, e21, e30, e31, e40, e41, e50, e51, e60, e61, e70, e71⟩ := idx_facts t
  have h2 : iblk1 V c 2 t = V c main_arg5 := by
    funext y
    show V c main_arg5 (((cfg1.win 2).blk t).view.emb y) = V c main_arg5 y
    have e : ((cfg1.win 2).blk t).view.emb y = y := by
      funext a; apply Fin.ext
      match a with
      | ⟨0, _⟩ => show win1_2.index t (0 : Fin 2) * 64 + 1 * (y 0).val = (y 0).val; omega
      | ⟨1, _⟩ => show win1_2.index t (1 : Fin 2) * 16 + 1 * (y 1).val = (y 1).val; omega
    rw [e]
  have h3 : iblk1 V c 3 t = V c main_v39 := by
    funext y
    show V c main_v39 (((cfg1.win 3).blk t).view.emb y) = V c main_v39 y
    have e : ((cfg1.win 3).blk t).view.emb y = y := by
      funext a; apply Fin.ext
      match a with
      | ⟨0, _⟩ => show win1_3.index t (0 : Fin 2) * 1 + 1 * (y 0).val = (y 0).val; omega
      | ⟨1, _⟩ => show win1_3.index t (1 : Fin 2) * 16 + 1 * (y 1).val = (y 1).val; omega
    rw [e]
  have h4 : iblk1 V c 4 t = V c main_arg7 := by
    funext y
    show V c main_arg7 (((cfg1.win 4).blk t).view.emb y) = V c main_arg7 y
    have e : ((cfg1.win 4).blk t).view.emb y = y := by
      funext a; apply Fin.ext
      match a with
      | ⟨0, _⟩ => show win1_4.index t (0 : Fin 2) * 64 + 1 * (y 0).val = (y 0).val; omega
      | ⟨1, _⟩ => show win1_4.index t (1 : Fin 2) * 16 + 1 * (y 1).val = (y 1).val; omega
    rw [e]
  have h5 : iblk1 V c 5 t = V c main_arg8 := by
    funext y
    show V c main_arg8 (((cfg1.win 5).blk t).view.emb y) = V c main_arg8 y
    have e : ((cfg1.win 5).blk t).view.emb y = y := by
      funext a; apply Fin.ext
      match a with
      | ⟨0, _⟩ => show win1_5.index t (0 : Fin 2) * 16 + 1 * (y 0).val = (y 0).val; omega
      | ⟨1, _⟩ => show win1_5.index t (1 : Fin 2) * 2 + 1 * (y 1).val = (y 1).val; omega
    rw [e]
  have h6 : iblk1 V c 6 t = V c main_v40 := by
    funext y
    show V c main_v40 (((cfg1.win 6).blk t).view.emb y) = V c main_v40 y
    have e : ((cfg1.win 6).blk t).view.emb y = y := by
      funext a; apply Fin.ext
      match a with
      | ⟨0, _⟩ => show win1_6.index t (0 : Fin 2) * 1 + 1 * (y 0).val = (y 0).val; omega
      | ⟨1, _⟩ => show win1_6.index t (1 : Fin 2) * 2 + 1 * (y 1).val = (y 1).val; omega
    rw [e]
  rw [h2, h3, h4, h5, h6]
  funext j
  show k1_pay1 (F := Ideal) (iblk1 V c 0 t) (iblk1 V c 1 t) (V c main_arg5) (V c main_arg7) (V c main_v39) (V c main_arg8) (V c main_v40) j
    = layer2 (V c main_v38) (V c main_v26) (V c main_arg5) (V c main_arg7) (V c main_v39) (V c main_arg8) (V c main_v40) (((cfg1.win 7).blk t).view.emb j)
  refine block2_rows _ _ _ _ _ _ _ _ _ t.val (fun y i h0 h1 => ?_) (fun y i h0 h1 => ?_) j _ ?_ ?_
  · show V c main_v38 (((cfg1.win 0).blk t).view.emb y) = V c main_v38 i
    have e : ((cfg1.win 0).blk t).view.emb y = i := by
      funext a; apply Fin.ext
      match a with
      | ⟨0, _⟩ => show win1_0.index t (0 : Fin 2) * 10000 + 1 * (y 0).val = (i 0).val; omega
      | ⟨1, _⟩ => show win1_0.index t (1 : Fin 2) * 64 + 1 * (y 1).val = (i 1).val; omega
    rw [e]
  · show V c main_v26 (((cfg1.win 1).blk t).view.emb y) = V c main_v26 i
    have e : ((cfg1.win 1).blk t).view.emb y = i := by
      funext a; apply Fin.ext
      match a with
      | ⟨0, _⟩ => show win1_1.index t (0 : Fin 2) * 10000 + 1 * (y 0).val = (i 0).val; omega
      | ⟨1, _⟩ => show win1_1.index t (1 : Fin 2) * 64 + 1 * (y 1).val = (i 1).val; omega
    rw [e]
  · show win1_7.index t (0 : Fin 2) * 10000 + 1 * (j 0).val = t.val * 10000 + (j 0).val; omega
  · show win1_7.index t (1 : Fin 2) * 2 + 1 * (j 1).val = (j 1).val; omega

/-- An index of the result is in point `t`'s block iff each coordinate is in the block's range on its axis. -/
theorem mem_blk (t : Fin cfg1.N) (i : S50000x2.Idx) :
    i ∈ ((cfg1.win 7).blk t).view.set ↔ ∀ a : Fin 2, win1_7.index t a * S10000x2.size a ≤ (i a).val ∧ (i a).val < win1_7.index t a * S10000x2.size a + S10000x2.size a := by
  show i ∈ ((View.whole main_v41).slice (win1_7.rect t)).set ↔ _
  rw [View.set_slice_whole, Rect.mem_set_unit]
  exact Iff.rfl

/-- Row `r` is in the block of point `r / 10000`: the five blocks tile the result. -/
theorem cover (i : S50000x2.Idx) :
    ∃ t : Fin cfg1.N, (cfg1.win 7).flush t = true ∧ i ∈ ((cfg1.win 7).blk t).view.set := by
  have hi0 : (i 0).val < 50000 := (i 0).isLt
  have hi1 : (i 1).val < 2 := (i 1).isLt
  obtain ⟨t, ht⟩ := idx_onto ⟨(i 0).val / 10000, by omega⟩
  have q0 : win1_7.index t (0 : Fin 2) = (i 0).val / 10000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 2 ≤ (i 1).val ∧ (i 1).val < win1_7.index t (1 : Fin 2) * 2 + 2; omega

/-- The result array after the second kernel is the output layer of the arrays it found. -/
theorem value (c : Dev nD) :
    (dat1 V c).arrAt 7 cfg1.N
      = layer2 (V c main_v38) (V c main_v26) (V c main_arg5) (V c main_arg7) (V c main_v39) (V c main_arg8) (V c main_v40) :=
  (dat1 V c).arrAt_eq_of_cover 7 _ (fun t _ => flushed V c t) cover

end Cert.KernelIdeal.SecondKernel

end
-- ==== Proof.KernelValue.lean ====
/-
  The idealized kernel's result as one function of its argument arrays.

  The host operations before the first kernel compute the mean aggregate of the node features `x`; the first kernel
  leaves `H = layer1 (mean x) x W1l W1r b1`; the host operations between the kernels compute the mean aggregate of
  `H` over the same edges with the same reciprocal column; the second kernel leaves
  `layer2 (mean H) H W2l W2r b2 Wfc bfc`. The biases reach the kernels as one-row matrices.
-/
import proofs.«129184_j34256659153681_1_alg».proof.Proof.Gen.KernelIdeal.Frame
import proofs.«129184_j34256659153681_1_alg».proof.Proof.Aggregate
import proofs.«129184_j34256659153681_1_alg».proof.Proof.FirstKernel
import proofs.«129184_j34256659153681_1_alg».proof.Proof.SecondKernel
import Idealize.ShloMosaic.Lib.StableHlo.Run

set_option maxRecDepth 16384

noncomputable section

namespace Cert.KernelIdeal.KernelValue

open Cert.KernelIdeal Cert.KernelIdeal.Gen Cert.KernelIdeal.LayerRows Cert.KernelIdeal.Aggregate
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The hidden features: the first layer of the mean aggregate of `x` and of `x`. -/
def hiddenFeatures (x : FVec Ideal S50000x64 .f32) (e : IVec S2x1250000 32)
    (w1l : FVec Ideal S64x64 .f32) (b1 : FVec Ideal S64 .f32)
    (w1r : FVec Ideal S64x64 .f32) : FVec Ideal S50000x64 .f32 :=
  layer1 (meanAgg x e) x w1l w1r (shapeCast _ b1 shapeCasts_S64_S1x64)

/-- The kernel's result: the output layer of the mean aggregate of the hidden features and of the hidden features. -/
def output (x : FVec Ideal S50000x64 .f32) (e : IVec S2x1250000 32)
    (w1l : FVec Ideal S64x64 .f32) (b1 : FVec Ideal S64 .f32)
    (w1r : FVec Ideal S64x64 .f32) (w2l : FVec Ideal S64x16 .f32)
    (b2 : FVec Ideal S16 .f32) (w2r : FVec Ideal S64x16 .f32)
    (wfc : FVec Ideal S16x2 .f32) (bfc : FVec Ideal S2 .f32) :
    FVec Ideal S50000x2 .f32 :=
  layer2 (meanAgg (hiddenFeatures x e w1l b1 w1r) e) (hiddenFeatures x e w1l b1 w1r) w2l w2r
    (shapeCast _ b2 shapeCasts_S16_S1x16) wfc (shapeCast _ bfc shapeCasts_S2_S1x2)

/-! ## Before the first kernel -/

theorem V1_agg (c : Dev nD) :
    V1 m ρ c main_v24 = meanAgg (m ((c : Thread nD τ).loc main_arg0)) (m ((c : Thread nD τ).loc main_arg1)) := by
  show StableHlo.after hostOps0 (W0 m ρ c) (Proc.devRef .tc main_v24) = _
  after_results_simp
  rfl
theorem V1_x (c : Dev nD) : V1 m ρ c main_arg0 = m ((c : Thread nD τ).loc main_arg0) := by
  show StableHlo.after hostOps0 (W0 m ρ c) (Proc.devRef .tc main_arg0) = _
  after_results_simp
theorem V1_w1l (c : Dev nD) : V1 m ρ c main_arg2 = m ((c : Thread nD τ).loc main_arg2) := by
  show StableHlo.after hostOps0 (W0 m ρ c) (Proc.devRef .tc main_arg2) = _
  after_results_simp
theorem V1_w1r (c : Dev nD) : V1 m ρ c main_arg4 = m ((c : Thread nD τ).loc main_arg4) := by
  show StableHlo.after hostOps0 (W0 m ρ c) (Proc.devRef .tc main_arg4) = _
  after_results_simp
theorem V1_b1 (c : Dev nD) :
    V1 m ρ c main_v25 = shapeCast _ (m ((c : Thread nD τ).loc main_arg3)) shapeCasts_S64_S1x64 := by
  show StableHlo.after hostOps0 (W0 m ρ c) (Proc.devRef .tc main_v25) = _
  after_results_simp
  rfl

/-- The first kernel leaves the hidden features. -/
theorem W2_hidden (c : Dev nD) :
    W2 m ρ c (Proc.devRef .tc main_v26)
      = hiddenFeatures (m ((c : Thread nD τ).loc main_arg0)) (m ((c : Thread nD τ).loc main_arg1))
          (m ((c : Thread nD τ).loc main_arg2)) (m ((c : Thread nD τ).loc main_arg3)) (m ((c : Thread nD τ).loc main_arg4)) := by
  refine (W2_arr m ρ c 5).trans ?_
  rw [FirstKernel.value (V1 m ρ) c, V1_agg, V1_x, V1_w1l, V1_w1r, V1_b1]
  rfl

/-! ## Between the kernels: what the first stretch computed is still there -/

theorem W2_dst (c : Dev nD) : W2 m ρ c (Proc.devRef .tc main_v3) = dst (m ((c : Thread nD τ).loc main_arg1)) := by
  refine (W2_of_ne m ρ c main_v3 (by decide)).trans ?_
  show StableHlo.after hostOps0 (W0 m ρ c) (Proc.devRef .tc main_v3) = _
  after_results_simp
  rfl
theorem W2_srcRaw (c : Dev nD) : W2 m ρ c (Proc.devRef .tc main_v1) = srcRaw (m ((c : Thread nD τ).loc main_arg1)) := by
  refine (W2_of_ne m ρ c main_v1 (by decide)).trans ?_
  show StableHlo.after hostOps0 (W0 m ρ c) (Proc.devRef .tc main_v1) = _
  after_results_simp
  rfl
theorem W2_recip (c : Dev nD) :
    W2 m ρ c (Proc.devRef .tc main_v12) = recipCol (dst (m ((c : Thread nD τ).loc main_arg1))) := by
  refine (W2_of_ne m ρ c main_v12 (by decide)).trans ?_
  show StableHlo.after hostOps0 (W0 m ρ c) (Proc.devRef .tc main_v12) = _
  after_results_simp
  rfl
theorem W2_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem W2_w2l (c : Dev nD) : W2 m ρ c (Proc.devRef .tc main_arg5) = m ((c : Thread nD τ).loc main_arg5) :=
  W2_arg m ρ c main_arg5 (by decide) (by after_results_simp)
theorem W2_b2 (c : Dev nD) : W2 m ρ c (Proc.devRef .tc main_arg6) = m ((c : Thread nD τ).loc main_arg6) :=
  W2_arg m ρ c main_arg6 (by decide) (by after_results_simp)
theorem W2_w2r (c : Dev nD) : W2 m ρ c (Proc.devRef .tc main_arg7) = m ((c : Thread nD τ).loc main_arg7) :=
  W2_arg m ρ c main_arg7 (by decide) (by after_results_simp)
theorem W2_wfc (c : Dev nD) : W2 m ρ c (Proc.devRef .tc main_arg8) = m ((c : Thread nD τ).loc main_arg8) :=
  W2_arg m ρ c main_arg8 (by decide) (by after_results_simp)
theorem W2_bfc (c : Dev nD) : W2 m ρ c (Proc.devRef .tc main_arg9) = m ((c : Thread nD τ).loc main_arg9) :=
  W2_arg m ρ c main_arg9 (by decide) (by after_results_simp)

/-! ## Before the second kernel -/

theorem V3_agg (c : Dev nD) :
    V3 m ρ c main_v38 = meanAt (W2 m ρ c (Proc.devRef .tc main_v26)) (W2 m ρ c (Proc.devRef .tc main_v3))
      (W2 m ρ c (Proc.devRef .tc main_v1)) (W2 m ρ c (Proc.devRef .tc main_v12)) := by
  show StableHlo.after hostOps1 (W2 m ρ c) (Proc.devRef .tc main_v38) = _
  after_results_simp
  rfl
theorem V3_hidden (c : Dev nD) : V3 m ρ c main_v26 = W2 m ρ c (Proc.devRef .tc main_v26) := by
  show StableHlo.after hostOps1 (W2 m ρ c) (Proc.devRef .tc main_v26) = _
  after_results_simp
theorem V3_w2l (c : Dev nD) : V3 m ρ c main_arg5 = W2 m ρ c (Proc.devRef .tc main_arg5) := by
  show StableHlo.after hostOps1 (W2 m ρ c) (Proc.devRef .tc main_arg5) = _
  after_results_simp
theorem V3_w2r (c : Dev nD) : V3 m ρ c main_arg7 = W2 m ρ c (Proc.devRef .tc main_arg7) := by
  show StableHlo.after hostOps1 (W2 m ρ c) (Proc.devRef .tc main_arg7) = _
  after_results_simp
theorem V3_wfc (c : Dev nD) : V3 m ρ c main_arg8 = W2 m ρ c (Proc.devRef .tc main_arg8) := by
  show StableHlo.after hostOps1 (W2 m ρ c) (Proc.devRef .tc main_arg8) = _
  after_results_simp
theorem V3_b2 (c : Dev nD) :
    V3 m ρ c main_v39 = shapeCast _ (W2 m ρ c (Proc.devRef .tc main_arg6)) shapeCasts_S16_S1x16 := by
  show StableHlo.after hostOps1 (W2 m ρ c) (Proc.devRef .tc main_v39) = _
  after_results_simp
  rfl
theorem V3_bfc (c : Dev nD) :
    V3 m ρ c main_v40 = shapeCast _ (W2 m ρ c (Proc.devRef .tc main_arg9)) shapeCasts_S2_S1x2 := by
  show StableHlo.after hostOps1 (W2 m ρ c) (Proc.devRef .tc main_v40) = _
  after_results_simp
  rfl

/-- THE KERNEL'S RESULT: the last boundary's contents at the result array are `output` of the arguments. -/
theorem W4_result (c : Dev nD) :
    W4 m ρ c (Proc.devRef .tc main_v41)
      = output (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W4_arr m ρ c 7).trans ?_
  rw [SecondKernel.value (V3 m ρ) c, V3_agg, V3_hidden, V3_w2l, V3_w2r, V3_wfc, V3_b2, V3_bfc,
    W2_hidden, W2_dst, W2_srcRaw, W2_recip, W2_w2l, W2_b2, W2_w2r, W2_wfc, W2_bfc]
  rfl

end Cert.KernelIdeal.KernelValue

end
-- ==== Proof.LibMeanScale.lean ====
/-
  The two arithmetic facts that join the kernel's layer to the reference's, on the extended reals.

  The mean over a node's incoming edges divides a sum `s` by `max cnt 1`. The reference divides; the kernel
  multiplies by the reciprocal `1 / max cnt 1` computed once. The divisor is at least one, hence not zero, and off
  zero the quotient is the product with the inverse, so both are `s · (max cnt 1)⁻¹` whatever `s` and `cnt` are,
  infinite or not. The layer then adds its bias before the second product (the reference) or after it (the kernel):
  addition of extended reals is commutative and associative. Imports only the library.
-/
import Idealize.ShloMosaic.PureOps.Ideal.Laws

namespace Idealize.ShloMosaic.MeanScale

open Idealize.ShloMosaic

/-- The f32 word of 1.0 denotes the real number one. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]
    norm_num
  rw [h, EReal.coe_one]

/-- A maximum with one is not zero. -/
theorem max_one_ne_zero (c : EReal) : max c (1 : EReal) ≠ 0 :=
  ne_of_gt (lt_of_lt_of_le zero_lt_one (le_max_right c 1))

/-- Multiplying by the reciprocal of `max c 1` is dividing by it, for every extended real `s` and `c`. -/
theorem mul_recip_eq_div (s c : EReal) :
    s * Ideal.div (Ideal.ofBits .f32 0x3F800000#32) (max c (Ideal.ofBits .f32 0x3F800000#32))
      = Ideal.div s (max c (Ideal.ofBits .f32 0x3F800000#32)) := by
  rw [ofBits_one]
  unfold Ideal.div
  rw [if_neg (max_one_ne_zero c), if_neg (max_one_ne_zero c), one_mul]

/-- The bias added after the second product or before it. -/
theorem bias_last (a x b : EReal) : (a + x) + b = (a + b) + x := add_right_comm a x b

end Idealize.ShloMosaic.MeanScale
-- ==== Proof.Bridge.lean ====
/-
  The kernel's function of the arguments is the reference's.

  Both programs gather source rows and scatter-add them at the destinations with the same operations, so the sum
  over incoming edges and the edge count are one term on both sides and are never opened. What differs: the
  reference divides the sum by `max count 1` where the kernel multiplies by the reciprocal (equal off zero, and the
  divisor is at least one), and the reference adds the bias between the two products where the kernel adds it after
  both (addition is commutative and associative on the extended reals). The rectifier is a maximum with zero on both
  sides. Neither law needs the inputs finite.
-/
import proofs.«129184_j34256659153681_1_alg».proof.Proof.Gen.ReferenceIdeal.Read
import proofs.«129184_j34256659153681_1_alg».proof.Proof.KernelValue
import proofs.«129184_j34256659153681_1_alg».proof.Proof.LibMeanScale

set_option maxRecDepth 16384

noncomputable section

namespace Cert.Bridge

open Cert.KernelIdeal Cert.KernelIdeal.Gen Cert.KernelIdeal.Aggregate Cert.KernelIdeal.LayerRows Cert.KernelIdeal.KernelValue
open Cert.ReferenceIdeal.Read
open Idealize.ShloMosaic Idealize.ShloMosaic.ValueIdx

variable (x : FVec Ideal S50000x64 .f32) (e : IVec S2x1250000 32)
  (w1l : FVec Ideal S64x64 .f32) (b1 : FVec Ideal S64 .f32) (w1r : FVec Ideal S64x64 .f32)
  (w2l : FVec Ideal S64x16 .f32) (b2 : FVec Ideal S16 .f32) (w2r : FVec Ideal S64x16 .f32)
  (wfc : FVec Ideal S16x2 .f32) (bfc : FVec Ideal S2 .f32)

/-! ## The shared gather and scatter: one term on both sides -/

theorem segSum_x : segSumAt x (dst e) (srcRaw e) = val_main_v13 (F := Ideal) x e := rfl
theorem count_first : count (dst e) = val_main_v17 (F := Ideal) e := rfl
theorem segSum_hidden :
    segSumAt (val_main_v29 (F := Ideal) x e w1l b1 w1r) (dst e) (srcRaw e) = val_main_v39 (F := Ideal) x e w1l b1 w1r := rfl
theorem count_second : count (dst e) = val_main_v43 (F := Ideal) e := rfl

/-! ## The reference's divisor at an entry -/

theorem divisor_first (r : Fin 50000) (k : Fin 64) :
    val_main_v21 (F := Ideal) e (ix2 r k) = max (val_main_v17 (F := Ideal) e (ix1 r)) (Ideal.ofBits .f32 0x3F800000#32) := by
  rw [val_main_v21_apply, val_main_v20_apply, val_main_v19_apply, val_main_v18_apply, val_main_cst_3_apply]
  have hi : idx_main_v20 (idx_main_v21 (ix2 r k)) = ix1 r := funext fun a => Fin.ext (by match a with | ⟨0, _⟩ => rfl)
  rw [hi]
  rfl

theorem divisor_second (r : Fin 50000) (k : Fin 64) :
    val_main_v47 (F := Ideal) e (ix2 r k) = max (val_main_v43 (F := Ideal) e (ix1 r)) (Ideal.ofBits .f32 0x3F800000#32) := by
  rw [val_main_v47_apply, val_main_v46_apply, val_main_v45_apply, val_main_v44_apply, val_main_cst_9_apply]
  have hi : idx_main_v46 (idx_main_v47 (ix2 r k)) = ix1 r := funext fun a => Fin.ext (by match a with | ⟨0, _⟩ => rfl)
  rw [hi]
  rfl

/-! ## The mean: multiplied by the reciprocal, or divided -/

theorem mean_first (r : Fin 50000) (k : Fin 64) : meanAgg x e (ix2 r k) = val_main_v22 (F := Ideal) x e (ix2 r k) := by
  rw [meanAgg_apply, MeanScale.mul_recip_eq_div, segSum_x, count_first, val_main_v22_apply, divisor_first]
  rfl

theorem mean_second (r : Fin 50000) (k : Fin 64) :
    meanAgg (val_main_v29 (F := Ideal) x e w1l b1 w1r) e (ix2 r k) = val_main_v48 (F := Ideal) x e w1l b1 w1r (ix2 r k) := by
  rw [meanAgg_apply, MeanScale.mul_recip_eq_div, segSum_hidden, count_second, val_main_v48_apply, divisor_second]
  rfl

/-! ## The first layer -/

theorem hidden_eq : hiddenFeatures x e w1l b1 w1r = val_main_v29 (F := Ideal) x e w1l b1 w1r := by
  funext i
  obtain ⟨r, q, rfl⟩ : ∃ (r : Fin 50000) (q : Fin 64), i = ix2 r q := ⟨i 0, i 1, eq_ix2 i⟩
  show entry1 (meanAgg x e) x w1l w1r (shapeCast _ b1 shapeCasts_S64_S1x64) r q = _
  rw [val_main_v29_apply, val_main_v28_apply, val_main_v26_apply, val_main_v23_apply, val_main_v27_apply,
    val_main_v25_apply, val_main_v24_apply, val_main_call0_v0_apply, val_main_call0_cst_apply]
  have l23 : ∀ k : Fin 64, lidx_main_v23 (ix2 r q) k = ix2 r k := fun k =>
    funext fun a => Fin.ext (by match a with | ⟨0, _⟩ => rfl | ⟨1, _⟩ => rfl)
  have r23 : ∀ k : Fin 64, ridx_main_v23 (ix2 r q) k = ix2 k q := fun k =>
    funext fun a => Fin.ext (by match a with | ⟨0, _⟩ => rfl | ⟨1, _⟩ => rfl)
  have l27 : ∀ k : Fin 64, lidx_main_v27 (ix2 r q) k = ix2 r k := fun k =>
    funext fun a => Fin.ext (by match a with | ⟨0, _⟩ => rfl | ⟨1, _⟩ => rfl)
  have r27 : ∀ k : Fin 64, ridx_main_v27 (ix2 r q) k = ix2 k q := fun k =>
    funext fun a => Fin.ext (by match a with | ⟨0, _⟩ => rfl | ⟨1, _⟩ => rfl)
  have hb : idx_main_v24 (idx_main_v25 (ix2 r q)) = ix1 q := funext fun a => Fin.ext (by match a with | ⟨0, _⟩ => rfl)
  simp only [l23, r23, l27, r27, hb]
  unfold entry1
  rw [MeanScale.bias_last, OneRowMatrix.row_of_vector]
  simp only [mean_first]
  rfl

/-! ## The second layer and the output product -/

theorem hidden2_eq (r : Fin 50000) (j : Fin 16) :
    LayerRows.hidden (meanAgg (val_main_v29 (F := Ideal) x e w1l b1 w1r) e) (val_main_v29 (F := Ideal) x e w1l b1 w1r) w2l w2r
        (shapeCast _ b2 shapeCasts_S16_S1x16) r j
      = val_main_v54 (F := Ideal) x e w1l b1 w1r w2l b2 w2r (ix2 r j) := by
  rw [val_main_v54_apply, val_main_v52_apply, val_main_v49_apply, val_main_v53_apply, val_main_v51_apply, val_main_v50_apply]
  have l49 : ∀ k : Fin 64, lidx_main_v49 (ix2 r j) k = ix2 r k := fun k =>
    funext fun a => Fin.ext (by match a with | ⟨0, _⟩ => rfl | ⟨1, _⟩ => rfl)
  have r49 : ∀ k : Fin 64, ridx_main_v49 (ix2 r j) k = ix2 k j := fun k =>
    funext fun a => Fin.ext (by match a with | ⟨0, _⟩ => rfl | ⟨1, _⟩ => rfl)
  have l53 : ∀ k : Fin 64, lidx_main_v53 (ix2 r j) k = ix2 r k := fun k =>
    funext fun a => Fin.ext (by match a with | ⟨0, _⟩ => rfl | ⟨1, _⟩ => rfl)
  have r53 : ∀ k : Fin 64, ridx_main_v53 (ix2 r j) k = ix2 k j := fun k =>
    funext fun a => Fin.ext (by match a with | ⟨0, _⟩ => rfl | ⟨1, _⟩ => rfl)
  have hb : idx_main_v50 (idx_main_v51 (ix2 r j)) = ix1 j := funext fun a => Fin.ext (by match a with | ⟨0, _⟩ => rfl)
  simp only [l49, r49, l53, r53, hb]
  unfold LayerRows.hidden
  rw [MeanScale.bias_last, OneRowMatrix.row_of_vector]
  simp only [mean_second]
  rfl

/-- The kernel's result is the reference's, as functions of the ten arguments. -/
theorem output_eq :
    output x e w1l b1 w1r w2l b2 w2r wfc bfc = val_main_v58 (F := Ideal) x e w1l b1 w1r w2l b2 w2r wfc bfc := by
  unfold output
  rw [hidden_eq]
  funext i
  obtain ⟨r, q, rfl⟩ : ∃ (r : Fin 50000) (q : Fin 2), i = ix2 r q := ⟨i 0, i 1, eq_ix2 i⟩
  show entry2 (meanAgg (val_main_v29 (F := Ideal) x e w1l b1 w1r) e) (val_main_v29 (F := Ideal) x e w1l b1 w1r) w2l w2r
    (shapeCast _ b2 shapeCasts_S16_S1x16) wfc (shapeCast _ bfc shapeCasts_S2_S1x2) r q = _
  rw [val_main_v58_apply, val_main_v55_apply, val_main_v57_apply, val_main_v56_apply]
  have l55 : ∀ j : Fin 16, lidx_main_v55 (ix2 r q) j = ix2 r j := fun j =>
    funext fun a => Fin.ext (by match a with | ⟨0, _⟩ => rfl | ⟨1, _⟩ => rfl)
  have r55 : ∀ j : Fin 16, ridx_main_v55 (ix2 r q) j = ix2 j q := fun j =>
    funext fun a => Fin.ext (by match a with | ⟨0, _⟩ => rfl | ⟨1, _⟩ => rfl)
  have hb : idx_main_v56 (idx_main_v57 (ix2 r q)) = ix1 q := funext fun a => Fin.ext (by match a with | ⟨0, _⟩ => rfl)
  simp only [l55, r55, hb]
  unfold entry2
  rw [OneRowMatrix.row_of_vector]
  change _ + _ = _ + _
  refine congrArg (· + bfc (ix1 q)) (Finset.sum_congr rfl fun j _ => ?_)
  rw [hidden2_eq]

end Cert.Bridge

end
-- ==== Proof.lean ====
/- The proof of `Cert.Claim`: a two-layer graph network with mean aggregation over incoming edges, its two dense
   combines fused into two row-blocked kernels, against the plain reference.

   The three frames are the generated ones (the reference's is its generated run with the result dropped), and the
   idealization rewrote nothing. For the value claim the idealized kernel's run is read with its result named
   (Proof/KernelRun.lean); each kernel's result array is its layer of the arrays it found, five row blocks tiling
   50000 rows (Proof/FirstKernel.lean, Proof/SecondKernel.lean over Proof/LayerRows.lean and Proof/BlockLayers.lean);
   the host operations around them compute the mean aggregate (Proof/Aggregate.lean), so the result is one function
   `output` of the ten arguments (Proof/KernelValue.lean); and that function is the reference's
   (Proof/Bridge.lean): the gather and scatter-add are shared and never opened, the sum times `1 / max count 1` is
   the sum divided by `max count 1` because the divisor is at least one, and the bias may be added before or after
   the second product (Proof/LibMeanScale.lean). No step uses that the inputs are finite. -/
import proofs.«129184_j34256659153681_1_alg».proof.Defs
import proofs.«129184_j34256659153681_1_alg».proof.Proof.Gen.Kernel
import proofs.«129184_j34256659153681_1_alg».proof.Proof.Gen.Kernel.Frame
import proofs.«129184_j34256659153681_1_alg».proof.Proof.Gen.KernelIdeal
import proofs.«129184_j34256659153681_1_alg».proof.Proof.Gen.KernelIdeal.Frame
import proofs.«129184_j34256659153681_1_alg».proof.Proof.Gen.ReferenceIdeal
import proofs.«129184_j34256659153681_1_alg».proof.Proof.Gen.ReferenceIdeal.Read
import proofs.«129184_j34256659153681_1_alg».proof.Proof.Gen.Pre_finite_inputs
import proofs.«129184_j34256659153681_1_alg».proof.Proof.KernelRun
import proofs.«129184_j34256659153681_1_alg».proof.Proof.KernelValue
import proofs.«129184_j34256659153681_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result array at `output` of the
    arguments: the kernel by its run read through its two kernels and host stretches, the reference by its generated
    run, its composed term the same function. -/
theorem algebraic : Cert.algebraic_KernelIdeal_ReferenceIdeal := by
  intro m ρ m' ρ' _ hagree
  refine ⟨fun c => Cert.KernelIdeal.KernelValue.output
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.W4_result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (Cert.Bridge.output_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
